-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S1x1 : Shape := ⟨2, ![1, 1]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 15
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S8192x4096, .f32⟩
  | .hbm, ⟨10, _⟩ => ⟨S8192x4096, .bf16⟩
  | .hbm, ⟨11, _⟩ => ⟨S16384x4096, .f32⟩
  | .hbm, ⟨12, _⟩ => ⟨S16384x4096, .bf16⟩
  | .hbm, ⟨13, _⟩ => ⟨S1x16384, .f32⟩
  | .hbm, ⟨14, _⟩ => ⟨S8192x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x1, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S16384x4096_S_d0_1 : S16384x4096.ReducesTo [0, 1] S_
  h_S_ : 0 < S_.numel
  shapeCasts_S_S1x1 : S_.ShapeCasts S1x1
  bitsLt_bf16_f32 : FTy.bits .bf16 < FTy.bits .f32
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x16384.size a
  hwx0_4 : ∀ i : grid0.Coords, EltTy.bits .f32 = 32 ∨ (Rect.block (s := S8192x16384) S1024x512.size (cc0_transform_4 i) (hinb0_4 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v5) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S16384x4096, .f32⟩
  | .hbm, ⟨10, _⟩ => ⟨S4096x16384, .f32⟩
  | .hbm, ⟨11, _⟩ => ⟨S8192x16384, .f32⟩
  | .hbm, ⟨12, _⟩ => ⟨S8192x16384, .f32⟩
  | .hbm, ⟨13, _⟩ => ⟨S8192x16384, .f32⟩
  | .hbm, ⟨14, _⟩ => ⟨S1x16384, .f32⟩
  | .hbm, ⟨15, _⟩ => ⟨S8192x16384, .f32⟩
  | .hbm, ⟨16, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  transposes_S16384x4096_S4096x16384_1_0 : S16384x4096.Transposes [1, 0] S4096x16384
  bcast_S_S8192x16384 : S_.BroadcastsInDim S8192x16384 (![] : Fin 0 → Fin S8192x16384.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.BinarizedLinear.lean ====
/-
  The function both programs compute: a linear layer whose activations and weights are replaced by their signs,
  rescaled by the mean absolute weight, plus a bias.

  For an activation array x of 8192 rows and 4096 columns, a weight array w of 16384 rows and 4096 columns and a
  bias vector of 16384 entries, the entry in row r and column c of the result is

      ( sum over k < 4096 of  sign x(r, k) * sign w(c, k) ) * meanAbs w  +  bias c,

  where meanAbs w is the sum of |w(j)| over all 16384 * 4096 entries of w, started from the zero word, divided by the
  word of 2^26 = 16384 * 4096. Everything is read on the extended reals: sums are finite sums there, and no law
  beyond the definitions is used, so nothing here asks the inputs to be finite.

  The function is given in two layers. `fromStaged` takes the four arrays a tiled product works from — the two
  sign arrays, a one-entry array holding the scale, a one-row array holding the bias — and `binarizedLinear` feeds it
  the signs, the mean and the bias of the three arguments.
-/
import Idealize.ShloMosaic.PureOps.Ideal
import Idealize.ShloMosaic.PureOps.Ideal.Laws
import Idealize.ShloMosaic.Lib.ValueIdx

noncomputable section

namespace Cert.BinarizedLinear

open Idealize.ShloMosaic Idealize.ShloMosaic.ValueIdx

/-- Entry (r, c) of the scaled product of two arrays along their SECOND axes, plus a row: the rows r of `a` and c of
    `b` multiplied entry by entry and summed over the 4096 columns, times the one entry of `s`, plus entry c of the
    one row `β`. -/
def fromStaged (a : (⟨2, ![8192, 4096]⟩ : Shape).Idx → EReal) (b : (⟨2, ![16384, 4096]⟩ : Shape).Idx → EReal)
    (s : (⟨2, ![1, 1]⟩ : Shape).Idx → EReal) (β : (⟨2, ![1, 16384]⟩ : Shape).Idx → EReal) :
    (⟨2, ![8192, 16384]⟩ : Shape).Idx → EReal := fun i =>
  (∑ k : Fin 4096, a (ix2 (i 0) k) * b (ix2 (i 1) k)) * s (ix2 (0 : Fin 1) (0 : Fin 1)) + β (ix2 (0 : Fin 1) (i 1))

/-- The mean absolute weight as both programs compute it: the zero word plus the sum of every entry's absolute
    value, divided (the host's division) by the word 0x4C800000, which is 2^26, the number of entries. -/
def meanAbs (w : (⟨2, ![16384, 4096]⟩ : Shape).Idx → EReal) : EReal :=
  FloatOps.hostDivf (F := Ideal) (φ := .f32)
    ((FloatOps.ofBits .f32 0x00000000#32 : Ideal .f32) + ∑ j : (⟨2, ![16384, 4096]⟩ : Shape).Idx, (FloatOps.hostAbsf (w j) : Ideal .f32))
    (FloatOps.ofBits .f32 0x4C800000#32 : Ideal .f32)

/-- The host's own spelling of the mean — the absolute values summed over both axes into a rank-0 array from the zero
    constant, then divided by the constant 2^26 — read at that array's one index, is `meanAbs`: a sum over every axis
    into a shape with nothing left is the initial value plus the sum over all entries. -/
theorem hostMean_apply (w : FVec Ideal (⟨2, ![16384, 4096]⟩ : Shape) .f32)
    (h' : (⟨2, ![16384, 4096]⟩ : Shape).ReducesTo [0, 1] (⟨0, ![]⟩ : Shape)) (h0 : 0 < (⟨0, ![]⟩ : Shape).numel)
    (i : (⟨0, ![]⟩ : Shape).Idx) :
    Host.divf (F := Ideal) (Host.reduceAdd (Host.absf w) (constant (⟨0, ![]⟩ : Shape) .f32 0x00000000#32) h' h0)
      (constant (⟨0, ![]⟩ : Shape) .f32 0x4C800000#32) i = meanAbs w := by
  show FloatOps.hostDivf (Host.reduceAdd (Host.absf w) (constant (F := Ideal) (⟨0, ![]⟩ : Shape) .f32 0x00000000#32) h' h0 i)
    (FloatOps.ofBits .f32 0x4C800000#32) = _
  unfold meanAbs
  refine congrArg (fun y => FloatOps.hostDivf (F := Ideal) (φ := .f32) y (FloatOps.ofBits .f32 0x4C800000#32)) ?_
  simp only [Host.reduceAdd, Ideal.hostReduceAdd_def]
  exact Ideal.hostReduceAdd_total h' (fun b => b.elim0) _ _ i

/-- The binarized linear layer of the three arguments. -/
def binarizedLinear (x : (⟨2, ![8192, 4096]⟩ : Shape).Idx → EReal) (w : (⟨2, ![16384, 4096]⟩ : Shape).Idx → EReal)
    (bias : (⟨1, ![16384]⟩ : Shape).Idx → EReal) : (⟨2, ![8192, 16384]⟩ : Shape).Idx → EReal :=
  fromStaged (fun j => Ideal.sign (x j)) (fun j => Ideal.sign (w j)) (fun _ => meanAbs w) (fun j => bias (ix1 (j 1)))

/-- Its entry, spelt out. -/
theorem binarizedLinear_apply (x : (⟨2, ![8192, 4096]⟩ : Shape).Idx → EReal) (w : (⟨2, ![16384, 4096]⟩ : Shape).Idx → EReal)
    (bias : (⟨1, ![16384]⟩ : Shape).Idx → EReal) (i : (⟨2, ![8192, 16384]⟩ : Shape).Idx) :
    binarizedLinear x w bias i
      = (∑ k : Fin 4096, Ideal.sign (x (ix2 (i 0) k)) * Ideal.sign (w (ix2 (i 1) k))) * meanAbs w + bias (ix1 (i 1)) := rfl

end Cert.BinarizedLinear

end
-- ==== Proof.ReferenceValue.lean ====
/-
  The reference program computes the binarized linear layer.

  Its last stage is (product * broadcast scale) + broadcast bias. Read at an entry (r, c): the product is the sum over k
  of sign x(r, k) times the TRANSPOSED sign array at (k, c), which is sign w(c, k); the scale broadcast from a
  rank-0 array is the mean absolute weight at every entry; the bias, made a one-row array and then repeated down the
  rows, is bias c. These are the three terms of `binarizedLinear`.
-/
import proofs.«177300_j86260123173274_2_alg».proof.Proof.Gen.ReferenceIdeal.Read
import proofs.«177300_j86260123173274_2_alg».proof.Proof.BinarizedLinear

noncomputable section

namespace Cert.ReferenceIdeal.RefValue

open Cert.ReferenceIdeal Cert.ReferenceIdeal.Gen Cert.ReferenceIdeal.Read Cert.BinarizedLinear
open Idealize.ShloMosaic Idealize.ShloMosaic.ValueIdx

/-- The left factor of the product's k-th term sits at row r, column k of the activations. -/
theorem lidx_eq (i : S8192x16384.Idx) (k : Fin 4096) : lidx_main_v6 i k = ix2 (i 0) k :=
  funext fun a => Fin.ext (by match a with | ⟨0, _⟩ => rfl | ⟨1, _⟩ => rfl)

/-- The right factor sits at row k, column c of the transposed weights, that is at row c, column k of the weights. -/
theorem ridx_eq (i : S8192x16384.Idx) (k : Fin 4096) : idx_main_v5 (ridx_main_v6 i k) = ix2 (i 1) k :=
  funext fun a => Fin.ext (by match a with | ⟨0, _⟩ => rfl | ⟨1, _⟩ => rfl)

/-- The bias entry under (r, c), through the two broadcasts, is entry c. -/
theorem bidx_eq (i : S8192x16384.Idx) : idx_main_v9 (idx_main_v10 i) = ix1 (i 1) :=
  funext fun a => Fin.ext (by match a with | ⟨0, _⟩ => rfl)

/-- The reference's last stage, at the ideal instance, is the binarized linear layer of its three arguments. -/
theorem reference_eq (x0 : (⟨S8192x4096, .f32⟩ : BufTy).Contents (Elt Ideal)) (x1 : (⟨S16384x4096, .f32⟩ : BufTy).Contents (Elt Ideal))
    (x2 : (⟨S16384, .f32⟩ : BufTy).Contents (Elt Ideal)) :
    val_main_v11 (F := Ideal) x0 x1 x2 = binarizedLinear x0 x1 x2 := by
  funext i
  rw [val_main_v11_apply, val_main_v8_apply, val_main_v6_apply, val_main_v7_apply, val_main_v2_apply, val_main_v1_apply,
    val_main_v10_apply, val_main_v9_apply, binarizedLinear_apply]
  simp only [val_main_v3_apply, val_main_v5_apply, val_main_v4_apply, val_main_v0_apply, val_main_cst_apply,
    val_main_cst_0_apply, lidx_eq, ridx_eq, bidx_eq]
  rfl

end Cert.ReferenceIdeal.RefValue

end
-- ==== Proof.BlockProduct.lean ====
/-
  What one grid point computes, read at an entry of its block.

  The body takes a block of 1024 rows of the activations' signs, a block of 512 rows of the weights' signs, the
  one-entry scale array and a 512-entry piece of the bias row. It multiplies the first block by the TRANSPOSE of the
  second (both contracted along their 4096 columns) into a zero accumulator, multiplies every entry by the scale, and
  adds the bias piece to every row. So entry (p, q) of what it stores is

      ( sum over k < 4096 of  a(p, k) * b(q, k) ) * s(0, 0)  +  β(0, q).

  The product into a zero accumulator is the bare sum on the extended reals; the contraction index, a one-axis
  multi-index, is re-indexed by its one coordinate.
-/
import proofs.«177300_j86260123173274_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The product's dimension numbers: both operands contracted along axis 1, rows of the first then rows of the second. -/
local notation "D" => dot_S1024x4096_S512x4096_S1024x512_1_1_0_0_n_n

/-- The left operand's row is the entry's row. -/
theorem lhs_row (i : S1024x512.Idx) (q : (D).contr.Idx) : ((D).lhsIdx i q 0).val = (i 0).val := by
  unfold DotDims.lhsIdx
  rw [dif_neg (show ¬(0 : Fin S1024x4096.rank) ∈ (D).lhsBatch by decide), dif_pos (show (0 : Fin S1024x4096.rank) ∈ (D).lhsNonContracting by decide)]
  rfl

/-- The left operand's column is the contraction index. -/
theorem lhs_col (i : S1024x512.Idx) (q : (D).contr.Idx) : ((D).lhsIdx i q 1).val = (q ⟨0, by decide⟩).val :=
  (D).lhsIdx_val_of_single rfl i q

/-- The right operand's row is the entry's column. -/
theorem rhs_row (i : S1024x512.Idx) (q : (D).contr.Idx) : ((D).rhsIdx i q 0).val = (i 1).val := by
  unfold DotDims.rhsIdx
  rw [dif_neg (show ¬(0 : Fin S512x4096.rank) ∈ (D).rhsBatch by decide), dif_pos (show (0 : Fin S512x4096.rank) ∈ (D).rhsNonContracting by decide)]
  rfl

/-- The right operand's column is the contraction index. -/
theorem rhs_col (i : S1024x512.Idx) (q : (D).contr.Idx) : ((D).rhsIdx i q 1).val = (q ⟨0, by decide⟩).val :=
  (D).rhsIdx_val_of_single rfl i q

/-- The block product into the zero accumulator, at entry (p, q): the sum over the 4096 columns of the two rows'
    entrywise products. -/
theorem product_apply (a : FVec Ideal S1024x4096 .bf16) (b : FVec Ideal S512x4096 .bf16) (p : Fin 1024) (q : Fin 512) :
    matmul (F := Ideal) (D) none a b (constant S1024x512 .f32 0x00000000#32) (ix2 p q)
      = ∑ k : Fin 4096, a (ix2 p k) * b (ix2 q k) := by
  simp only [matmul]
  rw [Ideal.matmul_constant_zero_apply, ← Equiv.sum_comp (contrEquiv1 (D) 4096 rfl rfl).symm]
  refine Finset.sum_congr rfl fun k _ => ?_
  have hk := contrEquiv1_symm_val (D) 4096 rfl rfl k
  have el : (D).lhsIdx (ix2 p q) ((contrEquiv1 (D) 4096 rfl rfl).symm k) = ix2 p k := funext fun a => Fin.ext (by
    match a with
    | ⟨0, _⟩ => exact lhs_row _ _
    | ⟨1, _⟩ => exact (lhs_col _ _).trans hk)
  have er : (D).rhsIdx (ix2 p q) ((contrEquiv1 (D) 4096 rfl rfl).symm k) = ix2 q k := funext fun a => Fin.ext (by
    match a with
    | ⟨0, _⟩ => exact rhs_row _ _
    | ⟨1, _⟩ => exact (rhs_col _ _).trans hk)
  rw [el, er]

/-- The scale the body extracts from the one-entry block is that entry. -/
theorem scale_apply (s : Vec Ideal S1x1 .f32) : extractAt ![0, 0] s inpos_S1x1_p0_0 = s (ix2 (0 : Fin 1) (0 : Fin 1)) :=
  congrArg s (funext fun a => Fin.ext (by match a with | ⟨0, _⟩ => rfl | ⟨1, _⟩ => rfl))

/-- The bias piece repeated down the 1024 rows, at entry (p, q), is its entry q. -/
theorem biasRows_apply (β : FVec Ideal S1x512 .f32) (p : Fin 1024) (q : Fin 512) :
    broadcastTo S1024x512 β broadcasts_S1x512_S1024x512 (ix2 p q) = β (ix2 (0 : Fin 1) q) :=
  broadcastTo_apply β broadcasts_S1x512_S1024x512 (ix2 p q) (ix2 (0 : Fin 1) q) (fun a => by
    match a with
    | ⟨0, _⟩ => show 0 = if (1 : Nat) = 1 then 0 else p.val; rw [if_pos rfl]
    | ⟨1, _⟩ => show q.val = if (512 : Nat) = 1 then 0 else q.val; rw [if_neg (by decide)])

/-- WHAT THE BODY STORES, at entry (p, q) of the output block. -/
theorem stored_apply (a : Vec Ideal S1024x4096 .bf16) (b : Vec Ideal S512x4096 .bf16) (s : Vec Ideal S1x1 .f32)
    (β : Vec Ideal S1x512 .f32) (p : Fin 1024) (q : Fin 512) :
    k0_pay1 (F := Ideal) a b s β (ix2 p q)
      = (∑ k : Fin 4096, a (ix2 p k) * b (ix2 q k)) * s (ix2 (0 : Fin 1) (0 : Fin 1)) + β (ix2 (0 : Fin 1) q) := by
  unfold k0_pay1
  rw [addf_apply, mulf_apply, broadcast_apply, shapeCast_self, shapeCast_self, shapeCast_self, product_apply, scale_apply,
    biasRows_apply]

end Cert.KernelIdeal.BlockProduct

end
-- ==== Proof.StagedArrays.lean ====
/-
  The four arrays the tiled product works from, in terms of the three arguments.

  Before the grid starts, the host has prepared: the signs of the activations and the signs of the weights (each then
  changed to a narrower float format, which is the identity on the extended reals); the mean absolute weight, a rank-0
  array recast as a one-entry matrix; and the bias vector recast as a one-row matrix. Read at an entry these are
  sign x(j), sign w(j), `meanAbs w` and bias q.
-/
import proofs.«177300_j86260123173274_2_alg».proof.Proof.Gen.KernelIdeal.Frame
import proofs.«177300_j86260123173274_2_alg».proof.Proof.BinarizedLinear
import Idealize.ShloMosaic.Lib.Pipeline.Value
import Idealize.ShloMosaic.Lib.StableHlo.Run

noncomputable section

namespace Cert.KernelIdeal.Staged

open Cert.KernelIdeal Cert.KernelIdeal.Gen Cert.BinarizedLinear
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The first staged array holds the activations' signs. -/
theorem signsX (c : Dev nD) :
    (V m c main_v5 : S8192x4096.Idx → EReal) = fun j => Ideal.sign (m ((c : Thread nD τ).loc main_arg0) j) := by
  dsimp only [Gen.V, Gen.hostOps0]; after_results; rfl

/-- The second staged array holds the weights' signs. -/
theorem signsW (c : Dev nD) :
    (V m c main_v7 : S16384x4096.Idx → EReal) = fun j => Ideal.sign (m ((c : Thread nD τ).loc main_arg1) j) := by
  dsimp only [Gen.V, Gen.hostOps0]; after_results; rfl

/-- The one-entry array holds the mean absolute weight. -/
theorem scale (c : Dev nD) :
    (V m c main_v3 : S1x1.Idx → EReal) (ix2 (0 : Fin 1) (0 : Fin 1)) = meanAbs (m ((c : Thread nD τ).loc main_arg1)) := by
  have e : (V m c main_v3 : S1x1.Idx → EReal)
      = shapeCast S1x1 (Host.divf (F := Ideal) (Host.reduceAdd (Host.absf (m ((c : Thread nD τ).loc main_arg1)))
          (constant (F := Ideal) S_ .f32 0x00000000#32) reducesTo_S16384x4096_S_d0_1 h_S_) (constant (F := Ideal) S_ .f32 0x4C800000#32))
          shapeCasts_S_S1x1 := by
    dsimp only [Gen.V, Gen.hostOps0]; after_results; rfl
  rw [e]
  unfold shapeCast
  exact hostMean_apply _ _ _ _

/-- The one-row array holds the bias: its entry (0, q) is bias q. -/
theorem biasRow (c : Dev nD) (q : Fin 16384) :
    (V m c main_v8 : S1x16384.Idx → EReal) (ix2 (0 : Fin 1) q) = m ((c : Thread nD τ).loc main_arg2) (ix1 q) := by
  have e : (V m c main_v8 : S1x16384.Idx → EReal)
      = shapeCast S1x16384 (m ((c : Thread nD τ).loc main_arg2)) shapeCasts_S16384_S1x16384 := by
    dsimp only [Gen.V, Gen.hostOps0]; after_results; rfl
  rw [e]
  refine (shapeCast_addUnit_apply ![16384] _ _ _).trans (congrArg _ (funext fun a => ?_))
  match a with
  | ⟨0, _⟩ => rfl

end Cert.KernelIdeal.Staged

end
-- ==== Proof.OutputArray.lean ====
/-
  From blocks to the whole result array.

  The grid has 8 * 32 = 256 points; point t works on block row t / 32 (1024 rows of the result) and block column
  t % 32 (512 columns). It is handed rows (t / 32) * 1024 .. of the activations' signs, rows (t % 32) * 512 .. of the
  weights' signs (all 4096 columns of each), the one-entry scale array, and columns (t % 32) * 512 .. of the one-row
  bias array, and it writes back the block of the result at block index (t / 32, t % 32).

  Entry (p, q) of what point t writes is therefore entry ((t / 32) * 1024 + p, (t % 32) * 512 + q) of `fromStaged` of
  the four staged arrays; the 256 blocks tile the 8192 by 16384 result (the point covering an entry (r, c) is
  (r / 1024) * 32 + c / 512), so the whole array after the run is `fromStaged` of the staged arrays, which is the
  binarized linear layer of the three arguments.
-/
import proofs.«177300_j86260123173274_2_alg».proof.Proof.Gen.KernelIdeal.Value
import proofs.«177300_j86260123173274_2_alg».proof.Proof.BinarizedLinear
import proofs.«177300_j86260123173274_2_alg».proof.Proof.BlockProduct
import proofs.«177300_j86260123173274_2_alg».proof.Proof.StagedArrays

set_option maxRecDepth 16384

noncomputable section

namespace Cert.KernelIdeal.OutputArray

open Cert.KernelIdeal Cert.KernelIdeal.Gen Cert.BinarizedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The block indices of the five windows at every point of the grid: the result and the activations move with t / 32
    on the rows, the result, the weights and the bias with t % 32 (on the result's and the bias's columns, on the
    weights' rows); every other block index is zero. -/
theorem blockIndices : ∀ t : Fin cfg0.N,
    win0_4.index t (0 : Fin 2) = t.val / 32 ∧ win0_4.index t (1 : Fin 2) = t.val % 32
    ∧ win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 32 :=
  (by decide +kernel : ∀ t : Fin grid0.N, _)

/-! ## The input blocks at a point, read off the staged arrays -/

/-- Entry (p, k) of the activations' block at point t is row (t / 32) * 1024 + p of the staged signs. -/
theorem blockX (c : Dev nD) (t : Fin cfg0.N) (p : Fin 1024) (k : Fin 4096) (r : Fin 8192)
    (hr : r.val = t.val / 32 * 1024 + p.val) :
    iblk m c 0 t (ix2 p k) = (V m c main_v5 : S8192x4096.Idx → EReal) (ix2 r k) := by
  obtain ⟨-, -, e0, e1, -⟩ := blockIndices t
  show V m c main_v5 (((cfg0.win 0).blk t).view.emb (ix2 p k)) = V m c main_v5 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- Entry (q, k) of the weights' block at point t is row (t % 32) * 512 + q of the staged signs. -/
theorem blockW (c : Dev nD) (t : Fin cfg0.N) (q : Fin 512) (k : Fin 4096) (s : Fin 16384)
    (hs : s.val = t.val % 32 * 512 + q.val) :
    iblk m c 1 t (ix2 q k) = (V m c main_v7 : S16384x4096.Idx → EReal) (ix2 s k) := by
  obtain ⟨-, -, -, -, e0, e1, -⟩ := blockIndices t
  show V m c main_v7 (((cfg0.win 1).blk t).view.emb (ix2 q k)) = V m c main_v7 (ix2 s k)
  refine congrArg _ (funext fun a => Fin.ext ?_)
  match a with
  | ⟨0, _⟩ => show win0_1.index t (0 : Fin 2) * 512 + 1 * q.val = s.val; omega
  | ⟨1, _⟩ => show win0_1.index t (1 : Fin 2) * 4096 + 1 * k.val = k.val; omega

/-- The scale's block at every point is the one-entry array itself. -/
theorem blockScale (c : Dev nD) (t : Fin cfg0.N) :
    iblk m c 2 t (ix2 (0 : Fin 1) (0 : Fin 1)) = (V m c main_v3 : S1x1.Idx → EReal) (ix2 (0 : Fin 1) (0 : Fin 1)) := by
  obtain ⟨-, -, -, -, -, -, e0, e1, -⟩ := blockIndices t
  show V m c main_v3 (((cfg0.win 2).blk t).view.emb (ix2 (0 : Fin 1) (0 : Fin 1))) = V m c main_v3 (ix2 (0 : Fin 1) (0 : Fin 1))
  refine congrArg _ (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- Entry (0, q) of the bias's block at point t is column (t % 32) * 512 + q of the one-row array. -/
theorem blockBias (c : Dev nD) (t : Fin cfg0.N) (q : Fin 512) (s : Fin 16384) (hs : s.val = t.val % 32 * 512 + q.val) :
    iblk m c 3 t (ix2 (0 : Fin 1) q) = (V m c main_v8 : S1x16384.Idx → EReal) (ix2 (0 : Fin 1) s) := by
  obtain ⟨-, -, -, -, -, -, -, -, e0, e1⟩ := blockIndices t
  show V m c main_v8 (((cfg0.win 3).blk t).view.emb (ix2 (0 : Fin 1) q)) = V m c main_v8 (ix2 (0 : Fin 1) s)
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * q.val = s.val; omega

/-! ## What a point writes back -/

/-- WHAT POINT t WRITES BACK is block t of `fromStaged` of the four staged arrays. -/
theorem flushed_eq (c : Dev nD) (t : Fin cfg0.N) :
    (dats m 0 c).flushed 4 t = ((cfg0.win 4).blk t).view.read (Elt Ideal)
      (fromStaged (V m c main_v5) (V m c main_v7) (V m c main_v3) (V m c main_v8)) := by
  rw [Value.flushed4]
  unfold out0_4
  rw [View.canon_unit_zero zeros]
  simp only [View.ld_unit_zero (S := S1024x4096) zeros, View.ld_unit_zero (S := S512x4096) zeros,
    View.ld_unit_zero (S := S1x1) zeros, View.ld_unit_zero (S := S1x512) zeros]
  refine funext fun (j : S1024x512.Idx) => ?_
  obtain ⟨p, q, rfl⟩ : ∃ (p : Fin 1024) (q : Fin 512), j = ix2 p q := ⟨j 0, j 1, eq_ix2 j⟩
  obtain ⟨o0, o1, -⟩ := blockIndices t
  show k0_pay1 (F := Ideal) (iblk m c 0 t) (iblk m c 1 t) (iblk m c 2 t) (iblk m c 3 t) (ix2 p q)
    = fromStaged (V m c main_v5) (V m c main_v7) (V m c main_v3) (V m c main_v8) (((cfg0.win 4).blk t).view.emb (ix2 p q))
  have hr : ((((cfg0.win 4).blk t).view.emb (ix2 p q)) 0).val = t.val / 32 * 1024 + p.val := by
    show win0_4.index t (0 : Fin 2) * 1024 + 1 * p.val = _; omega
  have hs : ((((cfg0.win 4).blk t).view.emb (ix2 p q)) 1).val = t.val % 32 * 512 + q.val := by
    show win0_4.index t (1 : Fin 2) * 512 + 1 * q.val = _; omega
  refine (BlockProduct.stored_apply (iblk m c 0 t) (iblk m c 1 t) (iblk m c 2 t) (iblk m c 3 t) p q).trans ?_
  exact congrArg₂ (· + ·)
    (congrArg₂ (· * ·)
      (Finset.sum_congr rfl fun k _ => congrArg₂ (· * ·) (blockX m c t p k _ hr) (blockW m c t q k _ hs))
      (blockScale m c t))
    (blockBias m c t q _ hs)

/-! ## The blocks tile the result -/

/-- An entry of the result is in point t's block iff each coordinate is in the block's range on its axis. -/
theorem mem_block (t : Fin cfg0.N) (i : S8192x16384.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v9).slice (win0_4.rect t)).set ↔ _
  rw [View.set_slice_whole, Rect.mem_set_unit]
  exact Iff.rfl

/-- Every entry (r, c) of the result is in the block of the point (r / 1024) * 32 + c / 512, which writes back. -/
theorem covered (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hlt : (i 0).val / 1024 * 32 + (i 1).val / 512 < cfg0.N := by
    show _ < grid0.N; rw [N_0]; omega
  obtain ⟨o0, o1, -⟩ := blockIndices ⟨(i 0).val / 1024 * 32 + (i 1).val / 512, hlt⟩
  refine ⟨⟨(i 0).val / 1024 * 32 + (i 1).val / 512, hlt⟩, flush0_4 _, ?_⟩
  rw [mem_block]
  intro a
  match a with
  | ⟨0, _⟩ =>
    show win0_4.index ⟨(i 0).val / 1024 * 32 + (i 1).val / 512, hlt⟩ (0 : Fin 2) * 1024 ≤ (i 0).val
      ∧ (i 0).val < win0_4.index ⟨(i 0).val / 1024 * 32 + (i 1).val / 512, hlt⟩ (0 : Fin 2) * 1024 + 1024
    rw [o0]; show ((i 0).val / 1024 * 32 + (i 1).val / 512) / 32 * 1024 ≤ _ ∧ _ < ((i 0).val / 1024 * 32 + (i 1).val / 512) / 32 * 1024 + 1024
    omega
  | ⟨1, _⟩ =>
    show win0_4.index ⟨(i 0).val / 1024 * 32 + (i 1).val / 512, hlt⟩ (1 : Fin 2) * 512 ≤ (i 1).val
      ∧ (i 1).val < win0_4.index ⟨(i 0).val / 1024 * 32 + (i 1).val / 512, hlt⟩ (1 : Fin 2) * 512 + 512
    rw [o1]; show ((i 0).val / 1024 * 32 + (i 1).val / 512) % 32 * 512 ≤ _ ∧ _ < ((i 0).val / 1024 * 32 + (i 1).val / 512) % 32 * 512 + 512
    omega

/-! ## The array after the run -/

/-- The staged arrays being the signs, the mean and the bias of the arguments, `fromStaged` of them is the binarized
    linear layer of the arguments. -/
theorem staged_eq (c : Dev nD) :
    fromStaged (V m c main_v5) (V m c main_v7) (V m c main_v3) (V m c main_v8)
      = binarizedLinear (m ((c : Thread nD τ).loc main_arg0)) (m ((c : Thread nD τ).loc main_arg1)) (m ((c : Thread nD τ).loc main_arg2)) := by
  funext i
  unfold binarizedLinear fromStaged
  rw [Staged.signsX, Staged.signsW, Staged.scale]
  exact congrArg₂ (· + ·) rfl (Staged.biasRow m c (i 1))

/-- THE RESULT ARRAY after the run is the binarized linear layer of the three arguments. -/
theorem final (c : Dev nD) :
    (dats m 0 c).arrAt 4 cfg0.N
      = binarizedLinear (m ((c : Thread nD τ).loc main_arg0)) (m ((c : Thread nD τ).loc main_arg1)) (m ((c : Thread nD τ).loc main_arg2)) :=
  ((dats m 0 c).arrAt_eq_of_cover 4 (fromStaged (V m c main_v5) (V m c main_v7) (V m c main_v3) (V m c main_v8))
    (fun t _ => flushed_eq m c t) covered).trans (staged_eq m c)

/-- The run, read: every weakly fair execution ends with the result array at the binarized linear layer of the
    arguments, the arguments unchanged. -/
theorem run : θ_run defs (onTc (τ := τ) (main (F := Ideal))) ⟨m, fun _ => 0, ρ⟩ fun r => ∀ c : Dev nD,
      r.2.mem ((c : Thread nD τ).loc main_v9)
        = binarizedLinear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.OutputArray

end
-- ==== Proof.lean ====
/-
  The binarized linear layer: the tiled kernel and the plain reference compute the same array.

  Both programs take activations x (8192 by 4096), weights w (16384 by 4096) and a bias (16384), and both produce, at
  row r and column c,

      ( sum over k < 4096 of  sign x(r, k) * sign w(c, k) ) * meanAbs w  +  bias c,

  with meanAbs w the sum of all |w(j)| divided by 2^26 (Proof/BinarizedLinear.lean). The reference forms the whole
  product of the sign arrays (the weights' transposed) and scales and shifts it (Proof/ReferenceValue.lean). The
  kernel prepares the signs, the mean and the bias row on the host (Proof/StagedArrays.lean) and then, on an 8 by 32
  grid, forms one 1024 by 512 block of the result per point from 1024 rows of one sign array and 512 rows of the
  other (Proof/BlockProduct.lean); the 256 blocks tile the result (Proof/OutputArray.lean). On the extended reals the
  two are the same finite sums with the same scale and shift, entry by entry, so no finiteness of the inputs is used:
  the precondition is never opened.

  The three frames are the generated frame of each kernel program and the reference's run with its result dropped;
  the idealization rewrote nothing, so there is nothing to preserve beyond `True`.
-/
import proofs.«177300_j86260123173274_2_alg».proof.Defs
import proofs.«177300_j86260123173274_2_alg».proof.Proof.Gen.Kernel
import proofs.«177300_j86260123173274_2_alg».proof.Proof.Gen.Kernel.Skeleton
import proofs.«177300_j86260123173274_2_alg».proof.Proof.Gen.Kernel.Launch
import proofs.«177300_j86260123173274_2_alg».proof.Proof.Gen.Kernel.Points
import proofs.«177300_j86260123173274_2_alg».proof.Proof.Gen.Kernel.Frame
import proofs.«177300_j86260123173274_2_alg».proof.Proof.Gen.KernelIdeal
import proofs.«177300_j86260123173274_2_alg».proof.Proof.Gen.KernelIdeal.Skeleton
import proofs.«177300_j86260123173274_2_alg».proof.Proof.Gen.KernelIdeal.Launch
import proofs.«177300_j86260123173274_2_alg».proof.Proof.Gen.KernelIdeal.Points
import proofs.«177300_j86260123173274_2_alg».proof.Proof.Gen.KernelIdeal.Frame
import proofs.«177300_j86260123173274_2_alg».proof.Proof.Gen.ReferenceIdeal
import proofs.«177300_j86260123173274_2_alg».proof.Proof.Gen.KernelIdeal.Value
import proofs.«177300_j86260123173274_2_alg».proof.Proof.Gen.ReferenceIdeal.Run
import proofs.«177300_j86260123173274_2_alg».proof.Proof.Gen.ReferenceIdeal.Read
import proofs.«177300_j86260123173274_2_alg».proof.Proof.Gen.Pre_finite_inputs
import proofs.«177300_j86260123173274_2_alg».proof.Proof.BinarizedLinear
import proofs.«177300_j86260123173274_2_alg».proof.Proof.ReferenceValue
import proofs.«177300_j86260123173274_2_alg».proof.Proof.OutputArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the binarized linear layer of those
    arguments in their result arrays. -/
theorem algebraic : Cert.algebraic_KernelIdeal_ReferenceIdeal := by
  intro m ρ m' ρ' _ hagree
  refine ⟨fun c => Cert.BinarizedLinear.binarizedLinear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
